-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S512x512 : Shape := ⟨2, ![512, 512]⟩
abbrev S512 : Shape := ⟨1, ![512]⟩
abbrev S2048x2048 : Shape := ⟨2, ![2048, 2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S2048x2048 .f32) (main_arg7 : FVec F S2048x2048 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S2048x512 .f32) (main_arg2 : FVec F S512x512 .f32) (main_arg3 : FVec F S512 .f32) (main_arg4 : FVec F S512x512 .f32) (main_arg5 : FVec F S512 .f32) (main_arg6 : FVec F S2048x2048 .f32) (main_arg7 : FVec F S2048x2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S16384x512 : Shape := ⟨2, ![16384, 512]⟩
abbrev S2048x512 : Shape := ⟨2, ![2048, 512]⟩
abbrev S512x512 : Shape := ⟨2, ![512, 512]⟩
abbrev S512 : Shape := ⟨1, ![512]⟩
abbrev S2048x2048 : Shape := ⟨2, ![2048, 2048]⟩
abbrev S1x512 : Shape := ⟨2, ![1, 512]⟩
abbrev S_ : Shape := ⟨0, ![]⟩
abbrev S2048 : Shape := ⟨1, ![2048]⟩
abbrev S1x2048 : Shape := ⟨2, ![1, 2048]⟩
abbrev S16384x2048 : Shape := ⟨2, ![16384, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S2048x2048, .f32⟩
  | .hbm, ⟨7, _⟩ => ⟨S2048x2048, .f32⟩
  | .hbm, ⟨8, _⟩ => ⟨S16384x512, .bf16⟩
  | .hbm, ⟨9, _⟩ => ⟨S2048x512, .bf16⟩
  | .hbm, ⟨10, _⟩ => ⟨S512x512, .bf16⟩
  | .hbm, ⟨11, _⟩ => ⟨S512x512, .bf16⟩
  | .hbm, ⟨12, _⟩ => ⟨S2048x2048, .bf16⟩
  | .hbm, ⟨13, _⟩ => ⟨S2048x2048, .bf16⟩
  | .hbm, ⟨14, _⟩ => ⟨S2048x512, .bf16⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S16384x2048, .f32⟩
  | .local _ .vmem, ⟨0, _⟩ => ⟨S2048x512, .bf16⟩
  | .local _ .vmem, ⟨1, _⟩ => ⟨S512x512, .bf16⟩
  | .local _ .vmem, ⟨2, _⟩ => ⟨S512, .f32⟩
  | .local _ .vmem, ⟨3, _⟩ => ⟨S512x512, .bf16⟩
  | .local _ .vmem, ⟨4, _⟩ => ⟨S512, .f32⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S2048x512, .bf16⟩
  | .local _ .vmem, ⟨13, _⟩ => ⟨S1x2048, .f32⟩
  | .local _ .vmem, ⟨14, _⟩ => ⟨S2048x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  reducesTo_S2048x512_S2048_d1 : S2048x512.ReducesTo [1] S2048
  h_S_ : 0 < S_.numel
  bcast_S2048_S1x2048_1 : S2048.BroadcastsInDim S1x2048 (![1] : Fin 1 → Fin S1x2048.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x512_S256x512 : S1x512.Broadcasts S256x512
  reduces_S256x512_S256 : S256x512.Reduces [1] S256
  shapeCasts_S256_S256x1 : S256.ShapeCasts S256x1
  broadcasts_S256x1_S256x2048 : S256x1.Broadcasts S256x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S2048x512_S512x512_S2048x512_1_1_0_0_n_n_wf : DotDims.WF S2048x512 S512x512 S2048x512 [1] [1] [0] [0] [] []
  dot_S256x512_S512x512_S256x512_1_1_0_0_n_n_wf : DotDims.WF S256x512 S512x512 S256x512 [1] [1] [0] [0] [] []
  dot_S256x512_S2048x512_S256x2048_1_1_0_0_n_n_wf : DotDims.WF S256x512 S2048x512 S256x2048 [1] [1] [0] [0] [] []
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x512.size a
  hwx0_0 : ∀ i : grid0.Coords, EltTy.bits .bf16 = 32 ∨ (Rect.block (s := S2048x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .bf16 = 32 ∨ (Rect.block (s := S2048x512) S2048x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S16384x512.size a
  hwx1_0 : ∀ i : grid1.Coords, EltTy.bits .bf16 = 32 ∨ (Rect.block (s := S16384x512) S256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S2048x512.size a
  hwx1_5 : ∀ i : grid1.Coords, EltTy.bits .bf16 = 32 ∨ (Rect.block (s := S2048x512) S2048x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x2048.size a ≤ S2048x2048.size a
  hwx1_7 : ∀ i : grid1.Coords, EltTy.bits .bf16 = 32 ∨ (Rect.block (s := S2048x2048) S2048x2048.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2048x2048.size a ≤ S2048x2048.size a
  hwx1_8 : ∀ i : grid1.Coords, EltTy.bits .bf16 = 32 ∨ (Rect.block (s := S2048x2048) S2048x2048.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x2048.size a ≤ S16384x2048.size a
  hwx1_9 : ∀ i : grid1.Coords, EltTy.bits .f32 = 32 ∨ (Rect.block (s := S16384x2048) S256x2048.size (cc1_transform_9 i) (hinb1_9 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v1) S2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2048x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S2048x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S2048x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S256x2048.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S512x512 : Shape := ⟨2, ![512, 512]⟩
abbrev S512 : Shape := ⟨1, ![512]⟩
abbrev S2048x2048 : Shape := ⟨2, ![2048, 2048]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩

abbrev nBuf : Space → Nat
  | .hbm => 103
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S2048x2048, .f32⟩
  | .hbm, ⟨7, _⟩ => ⟨S2048x2048, .f32⟩
  | .hbm, ⟨8, _⟩ => ⟨S512x512, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .i1⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S512x512, .f32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S512x512, .f32⟩
  | .hbm, ⟨35, _⟩ => ⟨S2048x512, .f32⟩
  | .hbm, ⟨36, _⟩ => ⟨S1x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .i1⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S512x512, .f32⟩
  | .hbm, ⟨56, _⟩ => ⟨S2048x512, .f32⟩
  | .hbm, ⟨57, _⟩ => ⟨S1x512, .f32⟩
  | .hbm, ⟨58, _⟩ => ⟨S2048x512, .f32⟩
  | .hbm, ⟨59, _⟩ => ⟨S2048x512, .f32⟩
  | .hbm, ⟨60, _⟩ => ⟨S16384x512, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S2048x512, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S512x2048, .f32⟩
  | .hbm, ⟨72, _⟩ => ⟨S16384x2048, .f32⟩
  | .hbm, ⟨73, _⟩ => ⟨S_, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S_, .f32⟩
  | .hbm, ⟨78, _⟩ => ⟨S16384x2048, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S16384x2048, .f32⟩
  | .hbm, ⟨83, _⟩ => ⟨S2048x2048, .f32⟩
  | .hbm, ⟨84, _⟩ => ⟨S16384x2048, .f32⟩
  | .hbm, ⟨85, _⟩ => ⟨S_, .f32⟩
  | .hbm, ⟨86, _⟩ => ⟨S16384x2048, .f32⟩
  | .hbm, ⟨87, _⟩ => ⟨S16384x2048, .f32⟩
  | .hbm, ⟨88, _⟩ => ⟨S16384x2048, .f32⟩
  | .hbm, ⟨89, _⟩ => ⟨S16384x2048, .f32⟩
  | .hbm, ⟨90, _⟩ => ⟨S16384x2048, .i1⟩
  | .hbm, ⟨91, _⟩ => ⟨S16384x2048, .f32⟩
  | .hbm, ⟨92, _⟩ => ⟨S16384x2048, .f32⟩
  | .hbm, ⟨93, _⟩ => ⟨S16384x2048, .f32⟩
  | .hbm, ⟨94, _⟩ => ⟨S16384x2048, .f32⟩
  | .hbm, ⟨95, _⟩ => ⟨S16384x2048, .f32⟩
  | .hbm, ⟨96, _⟩ => ⟨S16384x2048, .f32⟩
  | .hbm, ⟨97, _⟩ => ⟨S16384x2048, .f32⟩
  | .hbm, ⟨98, _⟩ => ⟨S16384x2048, .f32⟩
  | .hbm, ⟨99, _⟩ => ⟨S16384x2048, .f32⟩
  | .hbm, ⟨100, _⟩ => ⟨S16384x2048, .f32⟩
  | .hbm, ⟨101, _⟩ => ⟨S2048x2048, .f32⟩
  | .hbm, ⟨102, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_0 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_1 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_2 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  transposes_S2048x512_S512x2048_1_0 : S2048x512.Transposes [1, 0] S512x2048
  bcast_S_S16384x2048 : S_.BroadcastsInDim S16384x2048 (![] : Fin 0 → Fin S16384x2048.rank)
  transposes_S2048x2048_S2048x2048_1_0 : S2048x2048.Transposes [1, 0] S2048x2048
  dot_S16384x512_S512x512_S16384x512_1_0_0_1_n_n_wf : DotDims.WF S16384x512 S512x512 S16384x512 [1] [0] [0] [1] [] []
  dot_S2048x512_S512x512_S2048x512_1_0_0_1_n_n_wf : DotDims.WF S2048x512 S512x512 S2048x512 [1] [0] [0] [1] [] []
  dot_S16384x512_S512x2048_S16384x2048_1_0_0_1_n_n_wf : DotDims.WF S16384x512 S512x2048 S16384x2048 [1] [0] [0] [1] [] []
  dot_S16384x2048_S2048x2048_S16384x2048_1_0_0_1_n_n_wf : DotDims.WF S16384x2048 S2048x2048 S16384x2048 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.RowSpec.lean ====
/-
  The function both programs compute, written once over rows.

  A row x of 512 numbers goes through a two-layer map
      dml x = mish (x · W1ᵀ + b1) · W2ᵀ + b2,        mish z = z · tanh (softplus z),
  the 2048 sample rows go through the same map, and then, for a mapped row xd and the mapped samples sn,
      rbf xd s   = exp (-(sqrt (max ((‖xd‖² + ‖sn s‖²) - 2 · ⟨xd, sn s⟩) 0))),
      result     = mish (rbf · Wn1ᵀ) · Wn2ᵀ.
  Everything is stated on the extended reals with the operations' exact meanings; no law of arithmetic beyond
  "0 - a = -a" is needed to see that the two programs agree, because they form the same sums of the same products.
-/
import Idealize.ShloMosaic.PureOps.Ideal
import Idealize.ShloMosaic.PureOps.Ideal.Laws
import Idealize.ShloMosaic.Lib.ValueIdx

noncomputable section

namespace Cert.RowSpec

open Idealize.ShloMosaic Idealize.ShloMosaic.ValueIdx

/-- log (1 + e^z) in the guarded form both programs spell: max z 0 + log1p (exp (-|z - 0|)), behind a test
    "z - 0 is not equal to itself" that never fires on the extended reals. -/
def softplus (z : EReal) : EReal :=
  Scalar.select (Ideal.cmp .une (z - 0) (z - 0)) (z + 0)
    (max z 0 + Ideal.log1p (Ideal.exp (-(max (z - 0) (-(z - 0))))))

/-- mish z = z · tanh (softplus z). -/
def mish (z : EReal) : EReal := z * Ideal.tanh (softplus z)

/-- The "ordered and different" and the "unordered or different" comparisons are one test on the extended reals. -/
theorem cmp_one_eq_une (a b : EReal) : Ideal.cmp .one a b = Ideal.cmp .une a b := rfl

/-- Subtracting from zero is negation, also at the infinities. -/
theorem zero_sub' (a : EReal) : (0 : EReal) - a = -a := by
  rw [sub_eq_add_neg, zero_add]

variable {D E S T : ℕ}

/-- The hidden layer before its activation: x · W1ᵀ + b1 at hidden unit k. -/
def hid (W1 : Fin E → Fin D → EReal) (b1 : Fin E → EReal) (x : Fin D → EReal) (k : Fin E) : EReal :=
  (∑ l : Fin D, x l * W1 k l) + b1 k

/-- The two-layer map of one row. -/
def dml (W1 : Fin E → Fin D → EReal) (b1 : Fin E → EReal) (W2 : Fin T → Fin E → EReal) (b2 : Fin T → EReal)
    (x : Fin D → EReal) (j : Fin T) : EReal :=
  (∑ k : Fin E, mish (hid W1 b1 x k) * W2 j k) + b2 j

/-- The squared length of a row. -/
def sumsq (v : Fin T → EReal) : EReal := ∑ d : Fin T, v d * v d

/-- exp (-distance) between a mapped row and the mapped sample s, the distance from the expanded square. -/
def rbf (xd : Fin T → EReal) (sn : Fin S → Fin T → EReal) (ssq : Fin S → EReal) (s : Fin S) : EReal :=
  Ideal.exp (-(Ideal.sqrt (max ((sumsq xd + ssq s) - Ideal.ofBits .f32 0x40000000#32 * (∑ d : Fin T, xd d * sn s d)) 0)))

/-- A row times a transposed matrix. -/
def rowMulT {A B : ℕ} (W : Fin B → Fin A → EReal) (r : Fin A → EReal) (k : Fin B) : EReal := ∑ s : Fin A, r s * W k s

/-- The last two layers of one row: mish (r · Wn1ᵀ) · Wn2ᵀ. -/
def head {A B C : ℕ} (Wn1 : Fin B → Fin A → EReal) (Wn2 : Fin C → Fin B → EReal) (r : Fin A → EReal) (j : Fin C) : EReal :=
  ∑ k : Fin B, mish (rowMulT Wn1 r k) * Wn2 j k

/-- A matrix given on rank-2 indices, as a function of its two coordinates. -/
abbrev cur {a b : ℕ} (M : (⟨2, ![a, b]⟩ : Shape).Idx → EReal) : Fin a → Fin b → EReal := fun p q => M (ix2 p q)
/-- A vector given on rank-1 indices, as a function of its coordinate. -/
abbrev cur1 {a : ℕ} (v : (⟨1, ![a]⟩ : Shape).Idx → EReal) : Fin a → EReal := fun p => v (ix1 p)

/-- The mapped samples, and their squared lengths. -/
def samNew (Sm : (⟨2, ![2048, 512]⟩ : Shape).Idx → EReal) (W1 : (⟨2, ![512, 512]⟩ : Shape).Idx → EReal)
    (b1 : (⟨1, ![512]⟩ : Shape).Idx → EReal) (W2 : (⟨2, ![512, 512]⟩ : Shape).Idx → EReal) (b2 : (⟨1, ![512]⟩ : Shape).Idx → EReal) :
    Fin 2048 → Fin 512 → EReal :=
  fun s => dml (cur W1) (cur1 b1) (cur W2) (cur1 b2) (cur Sm s)

/-- THE RESULT, index by index: row (i 0) of x mapped, compared with every mapped sample, through the last two layers,
    read at column (i 1). -/
def result (X : (⟨2, ![16384, 512]⟩ : Shape).Idx → EReal) (Sm : (⟨2, ![2048, 512]⟩ : Shape).Idx → EReal)
    (W1 : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (Wn1 Wn2 : (⟨2, ![2048, 2048]⟩ : Shape).Idx → EReal) : (⟨2, ![16384, 2048]⟩ : Shape).Idx → EReal :=
  fun i => head (cur Wn1) (cur Wn2)
    (rbf (dml (cur W1) (cur1 b1) (cur W2) (cur1 b2) (cur X (i 0))) (samNew Sm W1 b1 W2 b2)
      (fun s => sumsq (samNew Sm W1 b1 W2 b2 s))) (i 1)

end Cert.RowSpec

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibMishRbf.lean ====
/-
  Vector-level pieces of a mish / RBF network, read at an index at the ideal values.

  A kernel body and a host program both build their arrays from a handful of pieces: a row times a transposed matrix
  plus a bias row, the activation mish z = z · tanh (softplus z) with softplus in its guarded form
  max z 0 + log1p (exp (-|z - 0|)), a row sum kept as a column, and exp (-sqrt (max · 0)). Each piece is read here at an
  index (p, k) as the corresponding scalar expression of Cert.RowSpec, for arbitrary extents: pointwise pieces by
  unfolding, the matrix products as the sum over the contracted axis, the bias row [b] → [1, b] → [a, b] and the kept
  column [a] → [a, 1] → [a, b] by their index maps.
-/
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«181897_j61692910239943_1_alg».proof.Proof.RowSpec
import proofs.«181897_j61692910239943_1_alg».proof.Proof.LibMatmulT
import proofs.«181897_j61692910239943_1_alg».proof.Proof.LibKeepdims
import proofs.«181897_j61692910239943_1_alg».proof.Proof.LibRowReduce

noncomputable section

namespace Cert.MishRbf

open Idealize.ShloMosaic Idealize.ShloMosaic.ValueIdx Cert.RowSpec

/-! ## The activation, as a kernel spells it and as a host program spells it -/

section Pointwise
variable {s : Shape}

/-- mish of every entry, in a kernel's spelling: the guard is "ordered and different", the negation is 0 - |·|. -/
def mishK (h : FVec Ideal s .f32) : FVec Ideal s .f32 :=
  mulf h (tanh (select
    (cmpf .one (subf h (broadcast s (Scalar.ofBits (F := Ideal) .f32 0x00000000#32))) (subf h (broadcast s (Scalar.ofBits (F := Ideal) .f32 0x00000000#32))))
    (addf h (broadcast s (Scalar.ofBits (F := Ideal) .f32 0x00000000#32)))
    (addf (maximumf h (broadcast s (Scalar.ofBits (F := Ideal) .f32 0x00000000#32)))
      (log1p (exp (subf (broadcast s (Scalar.ofBits (F := Ideal) .f32 0x00000000#32))
        (absf (subf h (broadcast s (Scalar.ofBits (F := Ideal) .f32 0x00000000#32))))))))))

/-- Entry by entry it is the scalar mish: the two guards are one test, and 0 - a = -a. -/
theorem mishK_apply (h : FVec Ideal s .f32) (i : s.Idx) : mishK h i = mish (h i) := by
  show h i * Ideal.tanh (Scalar.select (Ideal.cmp .one (h i - Ideal.ofBits .f32 0x00000000#32) (h i - Ideal.ofBits .f32 0x00000000#32))
      (h i + Ideal.ofBits .f32 0x00000000#32)
      (max (h i) (Ideal.ofBits .f32 0x00000000#32) + Ideal.log1p (Ideal.exp (Ideal.ofBits .f32 0x00000000#32
        - max (h i - Ideal.ofBits .f32 0x00000000#32) (-(h i - Ideal.ofBits .f32 0x00000000#32)))))) = _
  rw [Ideal.ofBits_zero_f32, zero_sub', cmp_one_eq_une]
  rfl

/-- exp (-sqrt (max d 0)) of every entry, in a kernel's spelling (0 - sqrt ·). -/
def expNegSqrtK (d : FVec Ideal s .f32) : FVec Ideal s .f32 :=
  exp (subf (broadcast s (Scalar.ofBits (F := Ideal) .f32 0x00000000#32))
    (sqrt (maximumf d (broadcast s (Scalar.ofBits (F := Ideal) .f32 0x00000000#32)))))

theorem expNegSqrtK_apply (d : FVec Ideal s .f32) (i : s.Idx) :
    expNegSqrtK d i = Ideal.exp (-(Ideal.sqrt (max (d i) 0))) := by
  show Ideal.exp (Ideal.ofBits .f32 0x00000000#32 - Ideal.sqrt (max (d i) (Ideal.ofBits .f32 0x00000000#32))) = _
  rw [Ideal.ofBits_zero_f32, zero_sub']

end Pointwise

/-! ## The layout pieces -/

section Layout
variable {a b : ℕ} {α : Type}

/-- A bias vector [b] cast to a row [1, b] and broadcast over a rows reads, at (p, k), the vector at k. -/
theorem biasRow_apply (v : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (k : Fin b) :
    broadcastTo ⟨2, ![a, b]⟩ (shapeCast ⟨2, ![1, b]⟩ v h) h' (ix2 p k) = v (ix1 k) := by
  rw [broadcastTo_1b_ab_apply, shapeCast_a_1a_apply]

/-- A vector [a] cast to a column [a, 1] and broadcast over b lanes reads, at (p, k), the vector at p. -/
theorem keptCol_apply (v : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (k : Fin b) :
    broadcastTo ⟨2, ![a, b]⟩ (shapeCast ⟨2, ![a, 1]⟩ v h) h' (ix2 p k) = v (ix1 p) := by
  rw [Keepdims.broadcastTo_a1_ab_apply, Keepdims.shapeCast_a_a1_apply]

end Layout

/-! ## A row times a transposed matrix, plus a bias row -/

section Linear
variable {M K N : ℕ} {φ₁ φ₂ : FTy}

/-- x · Wᵀ + b as a kernel forms it: the matrix unit into a zero accumulator, then the bias row added. -/
def linTK (w : DotDims.WF ⟨2, ![M, K]⟩ ⟨2, ![N, K]⟩ ⟨2, ![M, N]⟩ [1] [1] [0] [0] [] [])
    (hc : (⟨1, ![N]⟩ : Shape).ShapeCasts ⟨2, ![1, N]⟩) (hb : (⟨2, ![1, N]⟩ : Shape).Broadcasts ⟨2, ![M, N]⟩)
    (x : FVec Ideal ⟨2, ![M, K]⟩ φ₁) (W : FVec Ideal ⟨2, ![N, K]⟩ φ₂) (bias : FVec Ideal ⟨1, ![N]⟩ .f32) : FVec Ideal ⟨2, ![M, N]⟩ .f32 :=
  addf (matmul (⟨[1], [1], [0], [0], [], [], w⟩ : DotDims ⟨2, ![M, K]⟩ ⟨2, ![N, K]⟩ ⟨2, ![M, N]⟩) none x W
      (constant ⟨2, ![M, N]⟩ .f32 0x00000000#32))
    (broadcastTo ⟨2, ![M, N]⟩ (shapeCast ⟨2, ![1, N]⟩ bias hc) hb)

theorem linTK_apply (w : DotDims.WF ⟨2, ![M, K]⟩ ⟨2, ![N, K]⟩ ⟨2, ![M, N]⟩ [1] [1] [0] [0] [] [])
    (hc : (⟨1, ![N]⟩ : Shape).ShapeCasts ⟨2, ![1, N]⟩) (hb : (⟨2, ![1, N]⟩ : Shape).Broadcasts ⟨2, ![M, N]⟩)
    (x : FVec Ideal ⟨2, ![M, K]⟩ φ₁) (W : FVec Ideal ⟨2, ![N, K]⟩ φ₂) (bias : FVec Ideal ⟨1, ![N]⟩ .f32) (p : Fin M) (k : Fin N) :
    linTK w hc hb x W bias (ix2 p k) = (∑ c : Fin K, x (ix2 p c) * W (ix2 k c)) + bias (ix1 k) := by
  show FloatOps.matmul _ none x W (constant ⟨2, ![M, N]⟩ .f32 0x00000000#32) (ix2 p k)
      + broadcastTo ⟨2, ![M, N]⟩ (shapeCast ⟨2, ![1, N]⟩ bias hc) hb (ix2 p k) = _
  rw [MatmulT.matmul_zero_apply, biasRow_apply]

/-- x · Wᵀ with no bias, into a zero accumulator. -/
theorem mulT_apply (w : DotDims.WF ⟨2, ![M, K]⟩ ⟨2, ![N, K]⟩ ⟨2, ![M, N]⟩ [1] [1] [0] [0] [] [])
    (x : FVec Ideal ⟨2, ![M, K]⟩ φ₁) (W : FVec Ideal ⟨2, ![N, K]⟩ φ₂) (p : Fin M) (k : Fin N) :
    matmul (⟨[1], [1], [0], [0], [], [], w⟩ : DotDims ⟨2, ![M, K]⟩ ⟨2, ![N, K]⟩ ⟨2, ![M, N]⟩) none x W
      (constant ⟨2, ![M, N]⟩ .f32 0x00000000#32) (ix2 p k) = ∑ c : Fin K, x (ix2 p c) * W (ix2 k c) :=
  MatmulT.matmul_zero_apply w none x W p k

/-- The two-layer map of every row, as a kernel forms it: x · W1ᵀ + b1, the activation, a change of format (the
    identity here), · W2ᵀ + b2. -/
def dmlK {T : ℕ} {φ₃ : FTy}
    (w1 : DotDims.WF ⟨2, ![M, K]⟩ ⟨2, ![N, K]⟩ ⟨2, ![M, N]⟩ [1] [1] [0] [0] [] [])
    (hc1 : (⟨1, ![N]⟩ : Shape).ShapeCasts ⟨2, ![1, N]⟩) (hb1 : (⟨2, ![1, N]⟩ : Shape).Broadcasts ⟨2, ![M, N]⟩)
    (w2 : DotDims.WF ⟨2, ![M, N]⟩ ⟨2, ![T, N]⟩ ⟨2, ![M, T]⟩ [1] [1] [0] [0] [] [])
    (hc2 : (⟨1, ![T]⟩ : Shape).ShapeCasts ⟨2, ![1, T]⟩) (hb2 : (⟨2, ![1, T]⟩ : Shape).Broadcasts ⟨2, ![M, T]⟩)
    (hlt : FTy.bf16.bits < FTy.f32.bits)
    (x : FVec Ideal ⟨2, ![M, K]⟩ φ₁) (W1 : FVec Ideal ⟨2, ![N, K]⟩ φ₂) (b1 : FVec Ideal ⟨1, ![N]⟩ .f32)
    (W2 : FVec Ideal ⟨2, ![T, N]⟩ φ₃) (b2 : FVec Ideal ⟨1, ![T]⟩ .f32) : FVec Ideal ⟨2, ![M, T]⟩ .f32 :=
  linTK w2 hc2 hb2 (truncf .bf16 (mishK (linTK w1 hc1 hb1 x W1 b1)) hlt) W2 b2

/-- Read at (p, j) it is the two-layer map of row p, at output unit j. -/
theorem dmlK_apply {T : ℕ} {φ₃ : FTy}
    (w1 : DotDims.WF ⟨2, ![M, K]⟩ ⟨2, ![N, K]⟩ ⟨2, ![M, N]⟩ [1] [1] [0] [0] [] [])
    (hc1 : (⟨1, ![N]⟩ : Shape).ShapeCasts ⟨2, ![1, N]⟩) (hb1 : (⟨2, ![1, N]⟩ : Shape).Broadcasts ⟨2, ![M, N]⟩)
    (w2 : DotDims.WF ⟨2, ![M, N]⟩ ⟨2, ![T, N]⟩ ⟨2, ![M, T]⟩ [1] [1] [0] [0] [] [])
    (hc2 : (⟨1, ![T]⟩ : Shape).ShapeCasts ⟨2, ![1, T]⟩) (hb2 : (⟨2, ![1, T]⟩ : Shape).Broadcasts ⟨2, ![M, T]⟩)
    (hlt : FTy.bf16.bits < FTy.f32.bits)
    (x : FVec Ideal ⟨2, ![M, K]⟩ φ₁) (W1 : FVec Ideal ⟨2, ![N, K]⟩ φ₂) (b1 : FVec Ideal ⟨1, ![N]⟩ .f32)
    (W2 : FVec Ideal ⟨2, ![T, N]⟩ φ₃) (b2 : FVec Ideal ⟨1, ![T]⟩ .f32) (p : Fin M) (j : Fin T) :
    dmlK w1 hc1 hb1 w2 hc2 hb2 hlt x W1 b1 W2 b2 (ix2 p j)
      = dml (fun k l => W1 (ix2 k l)) (fun k => b1 (ix1 k)) (fun j k => W2 (ix2 j k)) (fun j => b2 (ix1 j)) (fun l => x (ix2 p l)) j := by
  unfold dmlK
  rw [linTK_apply]
  unfold dml
  refine congrArg (· + b2 (ix1 j)) (Finset.sum_congr rfl fun k _ => ?_)
  show mishK (linTK w1 hc1 hb1 x W1 b1) (ix2 p k) * W2 (ix2 j k) = _
  rw [mishK_apply, linTK_apply]
  rfl

end Linear

end Cert.MishRbf

end
-- ==== Proof.KernelPay.lean ====
/-
  What each kernel body stores, read at an index.

  The first kernel stores the two-layer map of every sample row. The second kernel, at one grid point, holds a block of
  256 rows of x and all the weights; it maps its rows, compares each mapped row with every mapped sample through
  exp (-distance), and sends the result through the last two layers. Both stored values are, index by index, the row
  functions of Cert.RowSpec of the loaded blocks: the kernel's matrix products are sums over the contracted axis, its
  row sum a plain sum, its changes of float format the identity.
-/
import proofs.«181897_j61692910239943_1_alg».proof.Proof.Gen.KernelIdeal.Skeleton
import proofs.«181897_j61692910239943_1_alg».proof.Proof.LibMishRbf

noncomputable section

namespace Cert.KernelIdeal.Pay

open Cert.KernelIdeal Cert.KernelIdeal.Gen
open Idealize.ShloMosaic Idealize.ShloMosaic.ValueIdx Cert.RowSpec Cert.MishRbf

/-! ## The first kernel: the mapped samples -/

/-- The stored value is the two-layer map of the loaded rows (the identity casts and the changes of format kept). -/
theorem pay0_eq (v0 : Vec Ideal S2048x512 .bf16) (v2 : Vec Ideal S512x512 .bf16) (v4 : Vec Ideal S512 .f32)
    (v5 : Vec Ideal S512x512 .bf16) (v7 : Vec Ideal S512 .f32) :
    k0_pay1 (F := Ideal) v0 v2 v4 v5 v7
      = truncf .bf16 (dmlK (M := 2048) (K := 512) (N := 512) (T := 512) (φ₁ := .bf16) (φ₂ := .bf16) (φ₃ := .bf16)
          dot_S2048x512_S512x512_S2048x512_1_1_0_0_n_n_wf shapeCasts_S512_S1x512 broadcasts_S1x512_S2048x512
          dot_S2048x512_S512x512_S2048x512_1_1_0_0_n_n_wf shapeCasts_S512_S1x512 broadcasts_S1x512_S2048x512 bitsLt_bf16_f32
          (shapeCast S2048x512 v0 shapeCasts_S2048x512_S2048x512) (shapeCast S512x512 v2 shapeCasts_S512x512_S512x512) v4
          (shapeCast S512x512 v5 shapeCasts_S512x512_S512x512) v7) bitsLt_bf16_f32 := rfl

/-- At (s, j): the two-layer map of row s of the loaded samples, at output unit j. -/
theorem pay0_apply (v0 : Vec Ideal S2048x512 .bf16) (v2 : Vec Ideal S512x512 .bf16) (v4 : Vec Ideal S512 .f32)
    (v5 : Vec Ideal S512x512 .bf16) (v7 : Vec Ideal S512 .f32) (s : Fin 2048) (j : Fin 512) :
    k0_pay1 (F := Ideal) v0 v2 v4 v5 v7 (ix2 s j) = dml (cur v2) (cur1 v4) (cur v5) (cur1 v7) (cur v0 s) j := by
  rw [pay0_eq]
  simp only [shapeCast_self]
  exact dmlK_apply (φ₁ := .bf16) (φ₂ := .bf16) (φ₃ := .bf16) _ _ _ _ _ _ _ v0 v2 v4 v5 v7 s j

/-! ## The second kernel: one block of rows against all mapped samples -/

/-- exp (-distance) of every mapped row of the block against every mapped sample, from the expanded square: the row
    sum of squares kept as a column, the samples' squared lengths as a row, twice the cross products subtracted. -/
def rbfK (xd : FVec Ideal S256x512 .f32) (sn : FVec Ideal S2048x512 .bf16) (ssq : FVec Ideal S1x2048 .f32) : FVec Ideal S256x2048 .f32 :=
  expNegSqrtK (subf
    (addf (broadcastTo S256x2048 (shapeCast S256x1 (multiReduction .add [1] S256 (mulf xd xd) 0x00000000#32 reduces_S256x512_S256 (.inl rfl) rfl) shapeCasts_S256_S256x1) broadcasts_S256x1_S256x2048)
      (broadcastTo S256x2048 ssq broadcasts_S1x2048_S256x2048))
    (mulf (broadcast S256x2048 (Scalar.ofBits (F := Ideal) .f32 0x40000000#32))
      (matmul (⟨[1], [1], [0], [0], [], [], dot_S256x512_S2048x512_S256x2048_1_1_0_0_n_n_wf⟩ : DotDims S256x512 S2048x512 S256x2048) none
        (truncf .bf16 xd bitsLt_bf16_f32) sn (constant S256x2048 .f32 0x00000000#32))))

/-- The last two layers of every row of the block. -/
def headK (r : FVec Ideal S256x2048 .f32) (Wn1 Wn2 : FVec Ideal S2048x2048 .bf16) : FVec Ideal S256x2048 .f32 :=
  matmul (⟨[1], [1], [0], [0], [], [], dot_S256x2048_S2048x2048_S256x2048_1_1_0_0_n_n_wf⟩ : DotDims S256x2048 S2048x2048 S256x2048) none
    (truncf .bf16 (mishK (matmul (⟨[1], [1], [0], [0], [], [], dot_S256x2048_S2048x2048_S256x2048_1_1_0_0_n_n_wf⟩ : DotDims S256x2048 S2048x2048 S256x2048) none
      (truncf .bf16 r bitsLt_bf16_f32) Wn1 (constant S256x2048 .f32 0x00000000#32))) bitsLt_bf16_f32)
    Wn2 (constant S256x2048 .f32 0x00000000#32)

/-- The stored value of the second kernel is that composition of its loaded blocks. -/
theorem pay1_eq (x0 : Vec Ideal S256x512 .bf16) (x1 : Vec Ideal S512x512 .bf16) (x2 : Vec Ideal S512 .f32)
    (x3 : Vec Ideal S512x512 .bf16) (x4 : Vec Ideal S512 .f32) (x5 : Vec Ideal S2048x512 .bf16) (x6 : Vec Ideal S1x2048 .f32)
    (x7 x8 : Vec Ideal S2048x2048 .bf16) :
    k1_pay1 (F := Ideal) (k1_pay2 x5) (k1_pay3 x6) (k1_pay4 x7) (k1_pay5 x8) (k1_pay6 x0 x1 x2 x3) (k1_pay7 x4)
      = headK (rbfK (dmlK (M := 256) (K := 512) (N := 512) (T := 512) (φ₁ := .bf16) (φ₂ := .bf16) (φ₃ := .bf16)
            dot_S256x512_S512x512_S256x512_1_1_0_0_n_n_wf shapeCasts_S512_S1x512 broadcasts_S1x512_S256x512
            dot_S256x512_S512x512_S256x512_1_1_0_0_n_n_wf shapeCasts_S512_S1x512 broadcasts_S1x512_S256x512 bitsLt_bf16_f32
            (shapeCast S256x512 x0 shapeCasts_S256x512_S256x512) (shapeCast S512x512 x1 shapeCasts_S512x512_S512x512) x2
            (shapeCast S512x512 x3 shapeCasts_S512x512_S512x512) x4)
          (shapeCast S2048x512 x5 shapeCasts_S2048x512_S2048x512) (shapeCast S1x2048 x6 shapeCasts_S1x2048_S1x2048))
        (shapeCast S2048x2048 x7 shapeCasts_S2048x2048_S2048x2048) (shapeCast S2048x2048 x8 shapeCasts_S2048x2048_S2048x2048) := rfl

/-- exp (-distance) at (p, s): the row function of mapped row p against sample s. -/
theorem rbfK_apply (xd : FVec Ideal S256x512 .f32) (sn : FVec Ideal S2048x512 .bf16) (ssq : FVec Ideal S1x2048 .f32)
    (p : Fin 256) (s : Fin 2048) :
    rbfK xd sn ssq (ix2 p s) = rbf (cur xd p) (cur sn) (fun s => ssq (ix2 (0 : Fin 1) s)) s := by
  unfold rbfK
  rw [expNegSqrtK_apply]
  unfold rbf sumsq
  show Ideal.exp (-(Ideal.sqrt (max
      ((broadcastTo S256x2048 (shapeCast S256x1 (multiReduction .add [1] S256 (mulf xd xd) 0x00000000#32 reduces_S256x512_S256 (.inl rfl) rfl) shapeCasts_S256_S256x1) broadcasts_S256x1_S256x2048 (ix2 p s)
          + broadcastTo S256x2048 ssq broadcasts_S1x2048_S256x2048 (ix2 p s))
        - Ideal.ofBits .f32 0x40000000#32
          * matmul (⟨[1], [1], [0], [0], [], [], dot_S256x512_S2048x512_S256x2048_1_1_0_0_n_n_wf⟩ : DotDims S256x512 S2048x512 S256x2048) none
              (truncf .bf16 xd bitsLt_bf16_f32) sn (constant S256x2048 .f32 0x00000000#32) (ix2 p s)) 0))) = _
  refine congrArg (fun z => Ideal.exp (-(Ideal.sqrt (max z 0)))) ?_
  refine congrArg₂ (· - ·) (congrArg₂ (· + ·) ?_ ?_) (congrArg (Ideal.ofBits .f32 0x40000000#32 * ·) ?_)
  · exact (keptCol_apply _ _ _ p s).trans (RowReduce.rowSum_apply (mulf xd xd) _ _ _ _ p)
  · exact broadcastTo_1b_ab_apply ssq _ p s
  · exact mulT_apply _ (truncf .bf16 xd bitsLt_bf16_f32) sn p s

/-- The second kernel's stored value at (p, j): row p of the block mapped, compared with every loaded mapped sample
    (their squared lengths as loaded), through the last two layers, at column j. -/
theorem pay1_apply (x0 : Vec Ideal S256x512 .bf16) (x1 : Vec Ideal S512x512 .bf16) (x2 : Vec Ideal S512 .f32)
    (x3 : Vec Ideal S512x512 .bf16) (x4 : Vec Ideal S512 .f32) (x5 : Vec Ideal S2048x512 .bf16) (x6 : Vec Ideal S1x2048 .f32)
    (x7 x8 : Vec Ideal S2048x2048 .bf16) (p : Fin 256) (j : Fin 2048) :
    k1_pay1 (F := Ideal) (k1_pay2 x5) (k1_pay3 x6) (k1_pay4 x7) (k1_pay5 x8) (k1_pay6 x0 x1 x2 x3) (k1_pay7 x4) (ix2 p j)
      = head (cur x7) (cur x8)
          (rbf (dml (cur x1) (cur1 x2) (cur x3) (cur1 x4) (cur x0 p)) (cur x5) (fun s => x6 (ix2 (0 : Fin 1) s))) j := by
  rw [pay1_eq]
  simp only [shapeCast_self]
  unfold headK head rowMulT
  rw [mulT_apply]
  refine Finset.sum_congr rfl fun k _ => ?_
  show mishK _ (ix2 p k) * x8 (ix2 j k) = _
  rw [mishK_apply, mulT_apply]
  refine congrArg (fun z => mish z * x8 (ix2 j k)) (Finset.sum_congr rfl fun s _ => ?_)
  show rbfK _ x5 x6 (ix2 p s) * x7 (ix2 k s) = _
  rw [rbfK_apply]
  refine congrArg (fun f => rbf f (cur x5) (fun s => x6 (ix2 (0 : Fin 1) s)) s * x7 (ix2 k s)) (funext fun d => ?_)
  exact dmlK_apply (φ₁ := .bf16) (φ₂ := .bf16) (φ₃ := .bf16) _ _ _ _ _ _ _ x0 x1 x2 x3 x4 p d

end Cert.KernelIdeal.Pay

end
-- ==== Proof.RowCongr.lean ====
/-
  The row functions depend on their weight arrays and rows only through their entries.

  Stated pointwise so that a block of an array, read where the block sits, can stand for the array itself: if two
  weight matrices, bias vectors and rows agree entry by entry, the two-layer map, the exp (-distance) row and the last
  two layers agree.
-/
import proofs.«181897_j61692910239943_1_alg».proof.Proof.RowSpec

noncomputable section

namespace Cert.RowSpec

variable {D E S T A B C : ℕ}

theorem dml_congr {W1 W1' : Fin E → Fin D → EReal} {b1 b1' : Fin E → EReal} {W2 W2' : Fin T → Fin E → EReal}
    {b2 b2' : Fin T → EReal} {x x' : Fin D → EReal}
    (h1 : ∀ k l, W1 k l = W1' k l) (h2 : ∀ k, b1 k = b1' k) (h3 : ∀ j k, W2 j k = W2' j k) (h4 : ∀ j, b2 j = b2' j)
    (h5 : ∀ l, x l = x' l) (j : Fin T) : dml W1 b1 W2 b2 x j = dml W1' b1' W2' b2' x' j := by
  obtain rfl : W1 = W1' := funext fun k => funext (h1 k)
  obtain rfl : b1 = b1' := funext h2
  obtain rfl : W2 = W2' := funext fun j => funext (h3 j)
  obtain rfl : b2 = b2' := funext h4
  obtain rfl : x = x' := funext h5
  rfl

theorem rbf_congr {xd xd' : Fin T → EReal} {sn sn' : Fin S → Fin T → EReal} {ssq ssq' : Fin S → EReal}
    (h1 : ∀ d, xd d = xd' d) (h2 : ∀ s d, sn s d = sn' s d) (h3 : ∀ s, ssq s = ssq' s) (s : Fin S) :
    rbf xd sn ssq s = rbf xd' sn' ssq' s := by
  obtain rfl : xd = xd' := funext h1
  obtain rfl : sn = sn' := funext fun s => funext (h2 s)
  obtain rfl : ssq = ssq' := funext h3
  rfl

theorem head_congr {Wn1 Wn1' : Fin B → Fin A → EReal} {Wn2 Wn2' : Fin C → Fin B → EReal} {r r' : Fin A → EReal}
    (h1 : ∀ k s, Wn1 k s = Wn1' k s) (h2 : ∀ j k, Wn2 j k = Wn2' j k) (h3 : ∀ s, r s = r' s) (j : Fin C) :
    head Wn1 Wn2 r j = head Wn1' Wn2' r' j := by
  obtain rfl : Wn1 = Wn1' := funext fun k => funext (h1 k)
  obtain rfl : Wn2 = Wn2' := funext fun j => funext (h2 j)
  obtain rfl : r = r' := funext h3
  rfl

theorem sumsq_congr {v v' : Fin T → EReal} (h : ∀ d, v d = v' d) : sumsq v = sumsq v' := by
  obtain rfl : v = v' := funext h
  rfl

end Cert.RowSpec

end
-- ==== Proof.KernelValue.lean ====
/-
  From blocks to arrays: what the kernel program leaves in its result buffer.

  Region 0 has one grid point, whose blocks are the whole arrays: it leaves the mapped samples. Between the regions the
  host squares them and sums each row. Region 1 has 64 grid points; point t reads rows 256 t … 256 t + 255 of x and the
  whole of every other array, and writes rows 256 t … 256 t + 255 of the result. Every stored entry is the row function
  of Cert.RowSpec of the row of x it sits in, so the 64 blocks are the restrictions of ONE function of the region's
  entry contents, and they cover the result. Reading the entry contents back through the host operations (changes of
  float format are the identity on the extended reals) gives the result as the row function of the arguments.
-/
import proofs.«181897_j61692910239943_1_alg».proof.Proof.Gen.KernelIdeal.Frame
import proofs.«181897_j61692910239943_1_alg».proof.Proof.KernelPay
import proofs.«181897_j61692910239943_1_alg».proof.Proof.RowCongr
import Idealize.ShloMosaic.Lib.Pipeline.Value
import Idealize.ShloMosaic.Lib.StableHlo.Run
import Idealize.ShloMosaic.PureOps.Ideal.Laws

set_option maxRecDepth 16384

noncomputable section

namespace Cert.KernelIdeal.Closed

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)
open Cert.RowSpec

theorem hz2 : (![0, 0] : Fin 2 → Nat) = fun _ => 0 := funext fun a => by fin_cases a <;> rfl
theorem hz1 : (![0] : Fin 1 → Nat) = fun _ => 0 := funext fun a => by fin_cases a <;> rfl

section Regions

variable (V : (c : Dev nD) → (b : Ref sig .tc) → Buf (Elt Ideal) ((c : Thread nD τ).loc b)) (c : Dev nD)

/-! ## Region 0: the mapped samples -/

/-- What region 0 leaves in its output array, from the region's entry contents: the two-layer map of each sample row. -/
def G0 : S2048x512.Idx → EReal := fun i =>
  dml (cur (a := 512) (b := 512) (V c main_v2)) (cur1 (a := 512) (V c main_arg3)) (cur (a := 512) (b := 512) (V c main_v3))
    (cur1 (a := 512) (V c main_arg5)) (cur (a := 2048) (b := 512) (V c main_v1) (i 0)) (i 1)

/-- The one grid point's blocks all start at the origin. -/
theorem idx0 : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 :=
  (by decide +kernel : ∀ t : Fin grid0.N, _)

theorem blk0_0 (t : Fin cfg0.N) (p : Fin 2048) (l : Fin 512) :
    iblk0 V c 0 t (ix2 p l) = (V c main_v1 : S2048x512.Idx → EReal) (ix2 p l) := by
  show V c (Pipeline.arrRef spec0 0) (((cfg0.win 0).blk t).view.emb (ix2 p l)) = _
  obtain ⟨e0, e1, e2, e3, e4, e5, e6, e7, e8, e9⟩ := idx0 t
  refine congrArg (V c main_v1) (funext fun a => Fin.ext ?_)
  match a with
  | ⟨0, _⟩ => show win0_0.index t (0 : Fin 2) * 2048 + 1 * p.val = p.val; omega
  | ⟨1, _⟩ => show win0_0.index t (1 : Fin 2) * 512 + 1 * l.val = l.val; omega

theorem blk0_1 (t : Fin cfg0.N) (k l : Fin 512) :
    iblk0 V c 1 t (ix2 k l) = (V c main_v2 : S512x512.Idx → EReal) (ix2 k l) := by
  show V c (Pipeline.arrRef spec0 1) (((cfg0.win 1).blk t).view.emb (ix2 k l)) = _
  obtain ⟨e0, e1, e2, e3, e4, e5, e6, e7, e8, e9⟩ := idx0 t
  refine congrArg (V c main_v2) (funext fun a => Fin.ext ?_)
  match a with
  | ⟨0, _⟩ => show win0_1.index t (0 : Fin 2) * 512 + 1 * k.val = k.val; omega
  | ⟨1, _⟩ => show win0_1.index t (1 : Fin 2) * 512 + 1 * l.val = l.val; omega

theorem blk0_2 (t : Fin cfg0.N) (k : Fin 512) :
    iblk0 V c 2 t (ix1 k) = (V c main_arg3 : S512.Idx → EReal) (ix1 k) := by
  show V c (Pipeline.arrRef spec0 2) (((cfg0.win 2).blk t).view.emb (ix1 k)) = _
  obtain ⟨e0, e1, e2, e3, e4, e5, e6, e7, e8, e9⟩ := idx0 t
  refine congrArg (V c main_arg3) (funext fun a => Fin.ext ?_)
  match a with
  | ⟨0, _⟩ => show win0_2.index t (0 : Fin 1) * 512 + 1 * k.val = k.val; omega

theorem blk0_3 (t : Fin cfg0.N) (k l : Fin 512) :
    iblk0 V c 3 t (ix2 k l) = (V c main_v3 : S512x512.Idx → EReal) (ix2 k l) := by
  show V c (Pipeline.arrRef spec0 3) (((cfg0.win 3).blk t).view.emb (ix2 k l)) = _
  obtain ⟨e0, e1, e2, e3, e4, e5, e6, e7, e8, e9⟩ := idx0 t
  refine congrArg (V c main_v3) (funext fun a => Fin.ext ?_)
  match a with
  | ⟨0, _⟩ => show win0_3.index t (0 : Fin 2) * 512 + 1 * k.val = k.val; omega
  | ⟨1, _⟩ => show win0_3.index t (1 : Fin 2) * 512 + 1 * l.val = l.val; omega

theorem blk0_4 (t : Fin cfg0.N) (k : Fin 512) :
    iblk0 V c 4 t (ix1 k) = (V c main_arg5 : S512.Idx → EReal) (ix1 k) := by
  show V c (Pipeline.arrRef spec0 4) (((cfg0.win 4).blk t).view.emb (ix1 k)) = _
  obtain ⟨e0, e1, e2, e3, e4, e5, e6, e7, e8, e9⟩ := idx0 t
  refine congrArg (V c main_arg5) (funext fun a => Fin.ext ?_)
  match a with
  | ⟨0, _⟩ => show win0_4.index t (0 : Fin 1) * 512 + 1 * k.val = k.val; omega

/-- An entry of the output block sits in the output array at its own coordinates. -/
theorem emb0_5 (t : Fin cfg0.N) (p : Fin 2048) (q : Fin 512) :
    ((cfg0.win 5).blk t).view.emb (ix2 p q) = (ix2 p q : S2048x512.Idx) := by
  obtain ⟨e0, e1, e2, e3, e4, e5, e6, e7, e8, e9⟩ := idx0 t
  funext a; apply Fin.ext
  match a with
  | ⟨0, _⟩ => show win0_5.index t (0 : Fin 2) * 2048 + 1 * p.val = p.val; omega
  | ⟨1, _⟩ => show win0_5.index t (1 : Fin 2) * 512 + 1 * q.val = q.val; omega

/-- WHAT THE POINT WRITES BACK is its block of G0. -/
theorem flushed0_eq (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S2048x512) hz2, View.ld_unit_zero (S := S512x512) hz2, View.ld_unit_zero (S := S512) hz1]
  funext y
  obtain ⟨p, q, rfl⟩ : ∃ (p : Fin 2048) (q : Fin 512), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = G0 V c (((cfg0.win 5).blk t).view.emb (ix2 p q))
  rw [emb0_5]
  refine (Pay.pay0_apply _ _ _ _ _ p q).trans ?_
  exact dml_congr (fun k l => blk0_1 V c t k l) (fun k => blk0_2 V c t k) (fun j k => blk0_3 V c t j k)
    (fun j => blk0_4 V c t j) (fun l => blk0_0 V c t p l) q

theorem mem_blk0 (t : Fin cfg0.N) (i : S2048x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v6).slice (win0_5.rect t)).set ↔ _
  rw [View.set_slice_whole, Rect.mem_set_unit]
  exact Iff.rfl

theorem cover0 (i : S2048x512.Idx) :
    ∃ t : Fin cfg0.N, (cfg0.win 5).flush t = true ∧ i ∈ ((cfg0.win 5).blk t).view.set := by
  have hi0 : (i 0).val < 2048 := (i 0).isLt
  have hi1 : (i 1).val < 512 := (i 1).isLt
  obtain ⟨e0, e1, e2, e3, e4, e5, e6, e7, e8, e9⟩ := idx0 t0_0
  refine ⟨t0_0, flush0_5 t0_0, ?_⟩
  rw [mem_blk0]
  intro a
  match a with
  | ⟨0, _⟩ => show win0_5.index t0_0 (0 : Fin 2) * 2048 ≤ (i 0).val ∧ (i 0).val < win0_5.index t0_0 (0 : Fin 2) * 2048 + 2048; omega
  | ⟨1, _⟩ => show win0_5.index t0_0 (1 : Fin 2) * 512 ≤ (i 1).val ∧ (i 1).val < win0_5.index t0_0 (1 : Fin 2) * 512 + 512; omega

/-- REGION 0's OUTPUT ARRAY after the region: the mapped samples. -/
theorem final0 : (dat0 V c).arrAt 5 cfg0.N = G0 V c :=
  (dat0 V c).arrAt_eq_of_cover 5 (G0 V c) (fun t _ => flushed0_eq V c t) (cover0)

/-! ## Region 1: every row of x against the mapped samples -/

/-- What region 1 leaves in its output array, from the region's entry contents: row (i 0) of x mapped, compared with
    the mapped samples it finds (their squared lengths as it finds them), through the last two layers, at column (i 1). -/
def G1 : S16384x2048.Idx → EReal := fun i =>
  head (cur (a := 2048) (b := 2048) (V c main_v4)) (cur (a := 2048) (b := 2048) (V c main_v5))
    (rbf (dml (cur (a := 512) (b := 512) (V c main_v2)) (cur1 (a := 512) (V c main_arg3)) (cur (a := 512) (b := 512) (V c main_v3))
        (cur1 (a := 512) (V c main_arg5)) (cur (a := 16384) (b := 512) (V c main_v0) (i 0)))
      (cur (a := 2048) (b := 512) (V c main_v6)) (fun s => (V c main_v10 : S1x2048.Idx → EReal) (ix2 (0 : Fin 1) s))) (i 1)

/-- The printed index maps over the grid: the x window and the output window move with the point along the rows, every
    other window stays at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = 0 ∧ win1_3.index t (1 : Fin 2) = 0 ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem lt1 (t : Fin cfg1.N) : t.val < 64 := by
  have hN : cfg1.N = 64 := N_1
  have := t.isLt
  omega

/-- Row p of the x block at point t is row 256 t + p of x. -/
theorem blk1_0 (t : Fin cfg1.N) (p : Fin 256) (l : Fin 512) (r : Fin 16384) (hr : r.val = t.val * 256 + p.val) :
    iblk1 V c 0 t (ix2 p l) = (V c main_v0 : S16384x512.Idx → EReal) (ix2 r l) := by
  show V c (Pipeline.arrRef spec1 0) (((cfg1.win 0).blk t).view.emb (ix2 p l)) = _
  obtain ⟨e0, e1, -⟩ := idx1 t
  refine congrArg (V c main_v0) (funext fun a => Fin.ext ?_)
  match a with
  | ⟨0, _⟩ => show win1_0.index t (0 : Fin 2) * 256 + 1 * p.val = r.val; omega
  | ⟨1, _⟩ => show win1_0.index t (1 : Fin 2) * 512 + 1 * l.val = l.val; omega

theorem blk1_1 (t : Fin cfg1.N) (k l : Fin 512) :
    iblk1 V c 1 t (ix2 k l) = (V c main_v2 : S512x512.Idx → EReal) (ix2 k l) := by
  show V c (Pipeline.arrRef spec1 1) (((cfg1.win 1).blk t).view.emb (ix2 k l)) = _
  obtain ⟨-, -, e2, e3, -⟩ := idx1 t
  refine congrArg (V c main_v2) (funext fun a => Fin.ext ?_)
  match a with
  | ⟨0, _⟩ => show win1_1.index t (0 : Fin 2) * 512 + 1 * k.val = k.val; omega
  | ⟨1, _⟩ => show win1_1.index t (1 : Fin 2) * 512 + 1 * l.val = l.val; omega

theorem blk1_2 (t : Fin cfg1.N) (k : Fin 512) :
    iblk1 V c 2 t (ix1 k) = (V c main_arg3 : S512.Idx → EReal) (ix1 k) := by
  show V c (Pipeline.arrRef spec1 2) (((cfg1.win 2).blk t).view.emb (ix1 k)) = _
  obtain ⟨-, -, -, -, e4, -⟩ := idx1 t
  refine congrArg (V c main_arg3) (funext fun a => Fin.ext ?_)
  match a with
  | ⟨0, _⟩ => show win1_2.index t (0 : Fin 1) * 512 + 1 * k.val = k.val; omega

theorem blk1_3 (t : Fin cfg1.N) (k l : Fin 512) :
    iblk1 V c 3 t (ix2 k l) = (V c main_v3 : S512x512.Idx → EReal) (ix2 k l) := by
  show V c (Pipeline.arrRef spec1 3) (((cfg1.win 3).blk t).view.emb (ix2 k l)) = _
  obtain ⟨-, -, -, -, -, e5, e6, -⟩ := idx1 t
  refine congrArg (V c main_v3) (funext fun a => Fin.ext ?_)
  match a with
  | ⟨0, _⟩ => show win1_3.index t (0 : Fin 2) * 512 + 1 * k.val = k.val; omega
  | ⟨1, _⟩ => show win1_3.index t (1 : Fin 2) * 512 + 1 * l.val = l.val; omega

theorem blk1_4 (t : Fin cfg1.N) (k : Fin 512) :
    iblk1 V c 4 t (ix1 k) = (V c main_arg5 : S512.Idx → EReal) (ix1 k) := by
  show V c (Pipeline.arrRef spec1 4) (((cfg1.win 4).blk t).view.emb (ix1 k)) = _
  obtain ⟨-, -, -, -, -, -, -, e7, -⟩ := idx1 t
  refine congrArg (V c main_arg5) (funext fun a => Fin.ext ?_)
  match a with
  | ⟨0, _⟩ => show win1_4.index t (0 : Fin 1) * 512 + 1 * k.val = k.val; omega

theorem blk1_5 (t : Fin cfg1.N) (s : Fin 2048) (d : Fin 512) :
    iblk1 V c 5 t (ix2 s d) = (V c main_v6 : S2048x512.Idx → EReal) (ix2 s d) := by
  show V c (Pipeline.arrRef spec1 5) (((cfg1.win 5).blk t).view.emb (ix2 s d)) = _
  obtain ⟨-, -, -, -, -, -, -, -, e8, e9, -⟩ := idx1 t
  refine congrArg (V c main_v6) (funext fun a => Fin.ext ?_)
  match a with
  | ⟨0, _⟩ => show win1_5.index t (0 : Fin 2) * 2048 + 1 * s.val = s.val; omega
  | ⟨1, _⟩ => show win1_5.index t (1 : Fin 2) * 512 + 1 * d.val = d.val; omega

theorem blk1_6 (t : Fin cfg1.N) (u : Fin 1) (s : Fin 2048) :
    iblk1 V c 6 t (ix2 u s) = (V c main_v10 : S1x2048.Idx → EReal) (ix2 u s) := by
  show V c (Pipeline.arrRef spec1 6) (((cfg1.win 6).blk t).view.emb (ix2 u s)) = _
  obtain ⟨-, -, -, -, -, -, -, -, -, -, e10, e11, -⟩ := idx1 t
  refine congrArg (V c main_v10) (funext fun a => Fin.ext ?_)
  match a with
  | ⟨0, _⟩ => show win1_6.index t (0 : Fin 2) * 1 + 1 * u.val = u.val; omega
  | ⟨1, _⟩ => show win1_6.index t (1 : Fin 2) * 2048 + 1 * s.val = s.val; omega

theorem blk1_7 (t : Fin cfg1.N) (k s : Fin 2048) :
    iblk1 V c 7 t (ix2 k s) = (V c main_v4 : S2048x2048.Idx → EReal) (ix2 k s) := by
  show V c (Pipeline.arrRef spec1 7) (((cfg1.win 7).blk t).view.emb (ix2 k s)) = _
  obtain ⟨-, -, -, -, -, -, -, -, -, -, -, -, e12, e13, -⟩ := idx1 t
  refine congrArg (V c main_v4) (funext fun a => Fin.ext ?_)
  match a with
  | ⟨0, _⟩ => show win1_7.index t (0 : Fin 2) * 2048 + 1 * k.val = k.val; omega
  | ⟨1, _⟩ => show win1_7.index t (1 : Fin 2) * 2048 + 1 * s.val = s.val; omega

theorem blk1_8 (t : Fin cfg1.N) (k s : Fin 2048) :
    iblk1 V c 8 t (ix2 k s) = (V c main_v5 : S2048x2048.Idx → EReal) (ix2 k s) := by
  show V c (Pipeline.arrRef spec1 8) (((cfg1.win 8).blk t).view.emb (ix2 k s)) = _
  obtain ⟨-, -, -, -, -, -, -, -, -, -, -, -, -, -, e14, e15, -⟩ := idx1 t
  refine congrArg (V c main_v5) (funext fun a => Fin.ext ?_)
  match a with
  | ⟨0, _⟩ => show win1_8.index t (0 : Fin 2) * 2048 + 1 * k.val = k.val; omega
  | ⟨1, _⟩ => show win1_8.index t (1 : Fin 2) * 2048 + 1 * s.val = s.val; omega

/-- Entry (p, j) of the output block at point t sits at row 256 t + p, column j of the result. -/
theorem emb1_9 (t : Fin cfg1.N) (p : Fin 256) (j : Fin 2048) (r : Fin 16384) (hr : r.val = t.val * 256 + p.val) :
    ((cfg1.win 9).blk t).view.emb (ix2 p j) = (ix2 r j : S16384x2048.Idx) := by
  obtain ⟨-, -, -, -, -, -, -, -, -, -, -, -, -, -, -, -, e16, e17⟩ := idx1 t
  funext a; apply Fin.ext
  match a with
  | ⟨0, _⟩ => show win1_9.index t (0 : Fin 2) * 256 + 1 * p.val = r.val; omega
  | ⟨1, _⟩ => show win1_9.index t (1 : Fin 2) * 2048 + 1 * j.val = j.val; omega

/-- WHAT POINT t WRITES BACK is block t of G1. -/
theorem flushed1_eq (t : Fin cfg1.N) :
    (dat1 V c).flushed 9 t = ((cfg1.win 9).blk t).view.read (Elt Ideal) (G1 V c) := by
  show (cfg1.win 9).cut (grid1.coords t) ((dat1 V c).after 9 t) = _
  rw [after1_9]
  unfold out1_9
  rw [View.canon_unit_zero hz2]
  simp only [View.ld_unit_zero (S := S256x512) hz2, View.ld_unit_zero (S := S512x512) hz2, View.ld_unit_zero (S := S512) hz1,
    View.ld_unit_zero (S := S2048x512) hz2, View.ld_unit_zero (S := S1x2048) hz2, View.ld_unit_zero (S := S2048x2048) hz2]
  funext y
  obtain ⟨p, j, rfl⟩ : ∃ (p : Fin 256) (j : Fin 2048), y = ix2 p j := ⟨y 0, y 1, eq_ix2 y⟩
  have ht := lt1 t
  have hp : p.val < 256 := p.isLt
  obtain ⟨r, hr⟩ : ∃ r : Fin 16384, r.val = t.val * 256 + p.val := ⟨⟨t.val * 256 + p.val, by omega⟩, rfl⟩
  show k1_pay1 (F := Ideal) (k1_pay2 (iblk1 V c 5 t)) (k1_pay3 (iblk1 V c 6 t)) (k1_pay4 (iblk1 V c 7 t)) (k1_pay5 (iblk1 V c 8 t))
      (k1_pay6 (iblk1 V c 0 t) (iblk1 V c 1 t) (iblk1 V c 2 t) (iblk1 V c 3 t)) (k1_pay7 (iblk1 V c 4 t)) (ix2 p j)
    = G1 V c (((cfg1.win 9).blk t).view.emb (ix2 p j))
  rw [emb1_9 t p j r hr]
  refine (Pay.pay1_apply _ _ _ _ _ _ _ _ _ p j).trans ?_
  exact head_congr (fun k s => blk1_7 V c t k s) (fun j k => blk1_8 V c t j k)
    (fun s => rbf_congr
      (fun d => dml_congr (fun k l => blk1_1 V c t k l) (fun k => blk1_2 V c t k) (fun j k => blk1_3 V c t j k)
        (fun j => blk1_4 V c t j) (fun l => blk1_0 V c t p l r hr) d)
      (fun s d => blk1_5 V c t s d) (fun s => blk1_6 V c t 0 s) s) j

theorem mem_blk1 (t : Fin cfg1.N) (i : S16384x2048.Idx) :
    i ∈ ((cfg1.win 9).blk t).view.set ↔ ∀ a : Fin 2, win1_9.index t a * S256x2048.size a ≤ (i a).val ∧ (i a).val < win1_9.index t a * S256x2048.size a + S256x2048.size a := by
  show i ∈ ((View.whole main_v11).slice (win1_9.rect t)).set ↔ _
  rw [View.set_slice_whole, Rect.mem_set_unit]
  exact Iff.rfl

/-- Row r of the result is covered by the point r / 256. -/
theorem cover1 (i : S16384x2048.Idx) :
    ∃ t : Fin cfg1.N, (cfg1.win 9).flush t = true ∧ i ∈ ((cfg1.win 9).blk t).view.set := by
  have hN : cfg1.N = 64 := N_1
  have hi0 : (i 0).val < 16384 := (i 0).isLt
  have hi1 : (i 1).val < 2048 := (i 1).isLt
  obtain ⟨t, ht⟩ : ∃ t : Fin cfg1.N, t.val = (i 0).val / 256 := ⟨⟨(i 0).val / 256, by omega⟩, rfl⟩
  obtain ⟨-, -, -, -, -, -, -, -, -, -, -, -, -, -, -, -, e16, e17⟩ := idx1 t
  refine ⟨t, flush1_9 t, ?_⟩
  rw [mem_blk1]
  intro a
  match a with
  | ⟨0, _⟩ => show win1_9.index t (0 : Fin 2) * 256 ≤ (i 0).val ∧ (i 0).val < win1_9.index t (0 : Fin 2) * 256 + 256; omega
  | ⟨1, _⟩ => show win1_9.index t (1 : Fin 2) * 2048 ≤ (i 1).val ∧ (i 1).val < win1_9.index t (1 : Fin 2) * 2048 + 2048; omega

/-- REGION 1's OUTPUT ARRAY after the region. -/
theorem final1 : (dat1 V c).arrAt 9 cfg1.N = G1 V c :=
  (dat1 V c).arrAt_eq_of_cover 9 (G1 V c) (fun t _ => flushed1_eq V c t) (cover1)

end Regions

/-! ## The run: the regions' entry contents read back to the arguments -/

section Run

variable (m : (ℓ : Loc nD τ sig) → Buf (Elt Ideal) ℓ) (ρ : Dev nD → PrngReg) (c : Dev nD)

/-- The arguments as plain arrays of extended reals. -/
abbrev a0 : S16384x512.Idx → EReal := m ((c : Thread nD τ).loc main_arg0)
abbrev a1 : S2048x512.Idx → EReal := m ((c : Thread nD τ).loc main_arg1)
abbrev a2 : S512x512.Idx → EReal := m ((c : Thread nD τ).loc main_arg2)
abbrev a3 : S512.Idx → EReal := m ((c : Thread nD τ).loc main_arg3)
abbrev a4 : S512x512.Idx → EReal := m ((c : Thread nD τ).loc main_arg4)
abbrev a5 : S512.Idx → EReal := m ((c : Thread nD τ).loc main_arg5)
abbrev a6 : S2048x2048.Idx → EReal := m ((c : Thread nD τ).loc main_arg6)
abbrev a7 : S2048x2048.Idx → EReal := m ((c : Thread nD τ).loc main_arg7)

/-! ### Region 0's entry: the format changes of the samples and of the first two weight matrices -/

theorem V1_v1 : @Eq (S2048x512.Idx → EReal) (V1 m ρ c main_v1) (a1 m c) := by
  show StableHlo.after hostOps0 (W0 m ρ c) (Proc.devRef .tc main_v1) = _
  after_results
  rfl
theorem V1_v2 : @Eq (S512x512.Idx → EReal) (V1 m ρ c main_v2) (a2 m c) := by
  show StableHlo.after hostOps0 (W0 m ρ c) (Proc.devRef .tc main_v2) = _
  after_results
  rfl
theorem V1_v3 : @Eq (S512x512.Idx → EReal) (V1 m ρ c main_v3) (a4 m c) := by
  show StableHlo.after hostOps0 (W0 m ρ c) (Proc.devRef .tc main_v3) = _
  after_results
  rfl
theorem V1_arg3 : @Eq (S512.Idx → EReal) (V1 m ρ c main_arg3) (a3 m c) := by
  show StableHlo.after hostOps0 (W0 m ρ c) (Proc.devRef .tc main_arg3) = _
  after_results
theorem V1_arg5 : @Eq (S512.Idx → EReal) (V1 m ρ c main_arg5) (a5 m c) := by
  show StableHlo.after hostOps0 (W0 m ρ c) (Proc.devRef .tc main_arg5) = _
  after_results

/-- Region 0 leaves the mapped samples. -/
theorem G0_eq (i : S2048x512.Idx) : G0 (V1 m ρ) c i = samNew (a1 m c) (a2 m c) (a3 m c) (a4 m c) (a5 m c) (i 0) (i 1) := by
  unfold G0 samNew
  exact dml_congr (fun k l => congrFun (V1_v2 m ρ c) (ix2 k l)) (fun k => congrFun (V1_arg3 m ρ c) (ix1 k))
    (fun j k => congrFun (V1_v3 m ρ c) (ix2 j k)) (fun j => congrFun (V1_arg5 m ρ c) (ix1 j))
    (fun l => congrFun (V1_v1 m ρ c) (ix2 (i 0) l)) (i 1)

/-! ### Region 1's entry -/

/-- A buffer that region 0 does not write and the second host stretch does not write is, at region 1's entry, what the
    first host stretch left. -/
theorem V3_of_V1 (b : Ref sig .tc) (h0 : W2 m ρ c (Proc.devRef .tc b) = W1 m ρ c (Proc.devRef .tc b))
    (h1 : StableHlo.after hostOps1 (W2 m ρ c) (Proc.devRef .tc b) = W2 m ρ c (Proc.devRef .tc b)) :
    V3 m ρ c b = V1 m ρ c b :=
  h1.trans h0

/-- An input array of region 0 leaves the region as it entered it. -/
theorem W2_in (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

theorem V3_v0 : @Eq (S16384x512.Idx → EReal) (V3 m ρ c main_v0) (a0 m c) := by
  refine (V3_of_V1 m ρ c main_v0 (W2_of_ne m ρ c main_v0 (by decide)) (by after_results)).trans ?_
  show StableHlo.after hostOps0 (W0 m ρ c) (Proc.devRef .tc main_v0) = _
  after_results
  rfl
theorem V3_v2 : @Eq (S512x512.Idx → EReal) (V3 m ρ c main_v2) (a2 m c) :=
  (V3_of_V1 m ρ c main_v2 (W2_in m ρ c 1 rfl) (by after_results)).trans (V1_v2 m ρ c)
theorem V3_v3 : @Eq (S512x512.Idx → EReal) (V3 m ρ c main_v3) (a4 m c) :=
  (V3_of_V1 m ρ c main_v3 (W2_in m ρ c 3 rfl) (by after_results)).trans (V1_v3 m ρ c)
theorem V3_arg3 : @Eq (S512.Idx → EReal) (V3 m ρ c main_arg3) (a3 m c) :=
  (V3_of_V1 m ρ c main_arg3 (W2_in m ρ c 2 rfl) (by after_results)).trans (V1_arg3 m ρ c)
theorem V3_arg5 : @Eq (S512.Idx → EReal) (V3 m ρ c main_arg5) (a5 m c) :=
  (V3_of_V1 m ρ c main_arg5 (W2_in m ρ c 4 rfl) (by after_results)).trans (V1_arg5 m ρ c)
theorem V3_v4 : @Eq (S2048x2048.Idx → EReal) (V3 m ρ c main_v4) (a6 m c) := by
  refine (V3_of_V1 m ρ c main_v4 (W2_of_ne m ρ c main_v4 (by decide)) (by after_results)).trans ?_
  show StableHlo.after hostOps0 (W0 m ρ c) (Proc.devRef .tc main_v4) = _
  after_results
  rfl
theorem V3_v5 : @Eq (S2048x2048.Idx → EReal) (V3 m ρ c main_v5) (a7 m c) := by
  refine (V3_of_V1 m ρ c main_v5 (W2_of_ne m ρ c main_v5 (by decide)) (by after_results)).trans ?_
  show StableHlo.after hostOps0 (W0 m ρ c) (Proc.devRef .tc main_v5) = _
  after_results
  rfl

/-- The mapped samples as region 1 finds them: what region 0 left. -/
theorem W2_v6 : @Eq (S2048x512.Idx → EReal) (W2 m ρ c (Proc.devRef .tc main_v6)) (G0 (V1 m ρ) c) :=
  (W2_arr m ρ c 5).trans (final0 (V1 m ρ) c)

theorem V3_v6 (s : Fin 2048) (d : Fin 512) :
    (V3 m ρ c main_v6 : S2048x512.Idx → EReal) (ix2 s d) = samNew (a1 m c) (a2 m c) (a3 m c) (a4 m c) (a5 m c) s d := by
  have h : @Eq (S2048x512.Idx → EReal) (V3 m ρ c main_v6) (W2 m ρ c (Proc.devRef .tc main_v6)) := by
    show StableHlo.after hostOps1 (W2 m ρ c) (Proc.devRef .tc main_v6) = _
    after_results
  rw [h, W2_v6]
  exact G0_eq m ρ c (ix2 s d)

/-- The samples' squared lengths as region 1 finds them: the host's square and row sum of what region 0 left, as a row. -/
theorem V3_v10 (s : Fin 2048) :
    (V3 m ρ c main_v10 : S1x2048.Idx → EReal) (ix2 (0 : Fin 1) s)
      = sumsq (samNew (a1 m c) (a2 m c) (a3 m c) (a4 m c) (a5 m c) s) := by
  have h : @Eq (S1x2048.Idx → EReal) (V3 m ρ c main_v10)
      (broadcastInDim S1x2048 ![1] bcast_S2048_S1x2048_1
        (Host.reduceAdd (F := Ideal)
          (mulf (extf .f32 (W2 m ρ c (Proc.devRef .tc main_v6) : FVec Ideal S2048x512 .bf16) bitsLt_bf16_f32)
            (extf .f32 (W2 m ρ c (Proc.devRef .tc main_v6) : FVec Ideal S2048x512 .bf16) bitsLt_bf16_f32))
          (constant S_ .f32 0x00000000#32) reducesTo_S2048x512_S2048_d1 h_S_)) := by
    show StableHlo.after hostOps1 (W2 m ρ c) (Proc.devRef .tc main_v10) = _
    after_results
  have key : ∀ i : S2048x512.Idx, (W2 m ρ c (Proc.devRef .tc main_v6) : S2048x512.Idx → EReal) i
      = samNew (a1 m c) (a2 m c) (a3 m c) (a4 m c) (a5 m c) (i 0) (i 1) :=
    fun i => (congrFun (W2_v6 m ρ c) i).trans (G0_eq m ρ c i)
  rw [h]
  refine (broadcastInDim_apply _ bcast_S2048_S1x2048_1 _ (ix2 (0 : Fin 1) s) (ix1 s) (fun a => match a with
    | ⟨0, _⟩ => by show s.val = if (2048 : Nat) = 1 then 0 else s.val; rw [if_neg (by decide)])).trans ?_
  simp only [Host.reduceAdd, Ideal.hostReduceAdd_def]
  rw [Ideal.hostReduceAdd_single reducesTo_S2048x512_S2048_d1 (by decide)]
  show Ideal.ofBits .f32 0x00000000#32 + _ = _
  rw [Ideal.ofBits_zero_f32, zero_add]
  unfold sumsq
  refine Finset.sum_congr rfl fun d _ => ?_
  exact congrArg₂ (· * ·) (key _) (key _)

/-- THE RESULT BUFFER after the run is the row function of the arguments. -/
theorem out_eq : @Eq (S16384x2048.Idx → EReal) (V4 m ρ c main_v11)
    (result (a0 m c) (a1 m c) (a2 m c) (a3 m c) (a4 m c) (a5 m c) (a6 m c) (a7 m c)) := by
  refine ((hF1 m ρ c 9).symm.trans (final1 (V3 m ρ) c)).trans ?_
  funext i
  unfold G1 result
  exact head_congr (fun k s => congrFun (V3_v4 m ρ c) (ix2 k s)) (fun j k => congrFun (V3_v5 m ρ c) (ix2 j k))
    (fun s => rbf_congr
      (fun d => dml_congr (fun k l => congrFun (V3_v2 m ρ c) (ix2 k l)) (fun k => congrFun (V3_arg3 m ρ c) (ix1 k))
        (fun j k => congrFun (V3_v3 m ρ c) (ix2 j k)) (fun j => congrFun (V3_arg5 m ρ c) (ix1 j))
        (fun l => congrFun (V3_v0 m ρ c) (ix2 (i 0) l)) d)
      (fun s d => V3_v6 m ρ c s d) (fun s => V3_v10 m ρ c s) s) (i 1)

end Run

end Cert.KernelIdeal.Closed

end
-- ==== Proof.RefValue.lean ====
/-
  The reference program's result is the row function of its arguments.

  The host program maps the rows of x and the sample rows through the same two layers, forms the squared distances from
  the expanded square (row sums kept as a column and as a row, twice the product with the transposed mapped samples
  subtracted), takes exp (-sqrt (max · 0)), and applies the last two layers. Read one operation at a time at an index,
  each stage is the corresponding expression of Cert.RowSpec: a product with a transposed weight matrix is the sum over
  the contracted axis of row entry times weight entry, a row sum is the initial 0 plus the sum, and the broadcasts and
  transposes only move indices.
-/
import proofs.«181897_j61692910239943_1_alg».proof.Proof.RefReadP
import proofs.«181897_j61692910239943_1_alg».proof.Proof.RowSpec

noncomputable section

namespace Cert.ReferenceIdeal.RefValue

open Cert.ReferenceIdeal Cert.ReferenceIdeal.ReadP
open Idealize.ShloMosaic Idealize.ShloMosaic.ValueIdx Cert.RowSpec

/-- Two indices built coordinate by coordinate from the same numbers are equal. -/
macro "idx_rfl" : tactic =>
  `(tactic| (funext a; first
    | exact (match a with | ⟨0, _⟩ => rfl | ⟨1, _⟩ => rfl)
    | exact (match a with | ⟨0, _⟩ => rfl)))

variable (x0 : S16384x512.Idx → EReal) (x1 : S2048x512.Idx → EReal) (x2 : S512x512.Idx → EReal) (x3 : S512.Idx → EReal)
  (x4 : S512x512.Idx → EReal) (x5 : S512.Idx → EReal) (x6 x7 : S2048x2048.Idx → EReal)

/-- The guarded softplus and the product with tanh, from the pre-activation z, as the host spells them. -/
theorem mish_host (z : EReal) :
    FloatOps.mulf z (FloatOps.hostUnary .tanh (Scalar.select
      (FloatOps.cmpf .une (FloatOps.subf z (FloatOps.ofBits (F := Ideal) .f32 0x00000000#32)) (FloatOps.subf z (FloatOps.ofBits (F := Ideal) .f32 0x00000000#32)))
      (FloatOps.addf z (FloatOps.ofBits (F := Ideal) .f32 0x00000000#32))
      (FloatOps.addf (FloatOps.maximumf z (FloatOps.ofBits (F := Ideal) .f32 0x00000000#32))
        (FloatOps.hostUnary .log1p (FloatOps.hostUnary .exp (FloatOps.hostNegf (FloatOps.hostAbsf
          (FloatOps.subf z (FloatOps.ofBits (F := Ideal) .f32 0x00000000#32))))))))) = mish z := by
  show z * Ideal.tanh (Scalar.select (Ideal.cmp .une (z - Ideal.ofBits .f32 0x00000000#32) (z - Ideal.ofBits .f32 0x00000000#32))
      (z + Ideal.ofBits .f32 0x00000000#32)
      (max z (Ideal.ofBits .f32 0x00000000#32) + Ideal.log1p (Ideal.exp (-(max (z - Ideal.ofBits .f32 0x00000000#32) (-(z - Ideal.ofBits .f32 0x00000000#32))))))) = _
  rw [Ideal.ofBits_zero_f32]
  rfl

/-! ## The rows of x through the two layers -/

theorem x_hid (r : Fin 16384) (k : Fin 512) :
    val_main_v4 (F := Ideal) x0 x2 x3 (ix2 r k) = hid (cur x2) (cur1 x3) (cur x0 r) k := by
  rw [val_main_v4_apply, val_main_v1_apply, val_main_v3_apply, val_main_v2_apply]
  unfold hid
  refine congrArg₂ (· + ·) (Finset.sum_congr rfl fun l _ => ?_) (congrArg x3 (by idx_rfl))
  rw [val_main_v0_apply]
  exact congrArg₂ (· * ·) (congrArg x0 (by idx_rfl)) (congrArg x2 (by idx_rfl))

theorem x_mish (i : S16384x512.Idx) :
    val_main_v7 (F := Ideal) x0 x2 x3 i = mish (val_main_v4 (F := Ideal) x0 x2 x3 i) := by
  rw [val_main_v7_apply, val_main_v6_apply, val_main_v5_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply]
  exact mish_host _

theorem x_dml (r : Fin 16384) (j : Fin 512) :
    val_main_v12 (F := Ideal) x0 x2 x3 x4 x5 (ix2 r j) = dml (cur x2) (cur1 x3) (cur x4) (cur1 x5) (cur x0 r) j := by
  rw [val_main_v12_apply, val_main_v9_apply, val_main_v11_apply, val_main_v10_apply]
  unfold dml
  refine congrArg₂ (· + ·) (Finset.sum_congr rfl fun k _ => ?_) (congrArg x5 (by idx_rfl))
  rw [val_main_v8_apply, x_mish]
  have hl : lidx_main_v9 (ix2 r j) k = ix2 r k := by idx_rfl
  rw [hl, x_hid]
  exact congrArg (mish _ * ·) (congrArg x4 (by idx_rfl))

/-! ## The sample rows through the same two layers -/

theorem s_hid (s : Fin 2048) (k : Fin 512) :
    val_main_v17 (F := Ideal) x1 x2 x3 (ix2 s k) = hid (cur x2) (cur1 x3) (cur x1 s) k := by
  rw [val_main_v17_apply, val_main_v14_apply, val_main_v16_apply, val_main_v15_apply]
  unfold hid
  refine congrArg₂ (· + ·) (Finset.sum_congr rfl fun l _ => ?_) (congrArg x3 (by idx_rfl))
  rw [val_main_v13_apply]
  exact congrArg₂ (· * ·) (congrArg x1 (by idx_rfl)) (congrArg x2 (by idx_rfl))

theorem s_mish (i : S2048x512.Idx) :
    val_main_v20 (F := Ideal) x1 x2 x3 i = mish (val_main_v17 (F := Ideal) x1 x2 x3 i) := by
  rw [val_main_v20_apply, val_main_v19_apply, val_main_v18_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_call1_cst_apply]
  exact mish_host _

theorem s_dml (s : Fin 2048) (j : Fin 512) :
    val_main_v25 (F := Ideal) x1 x2 x3 x4 x5 (ix2 s j) = samNew x1 x2 x3 x4 x5 s j := by
  rw [val_main_v25_apply, val_main_v22_apply, val_main_v24_apply, val_main_v23_apply]
  unfold samNew dml
  refine congrArg₂ (· + ·) (Finset.sum_congr rfl fun k _ => ?_) (congrArg x5 (by idx_rfl))
  rw [val_main_v21_apply, s_mish]
  have hl : lidx_main_v22 (ix2 s j) k = ix2 s k := by idx_rfl
  rw [hl, s_hid]
  exact congrArg (mish _ * ·) (congrArg x4 (by idx_rfl))

/-! ## Squared lengths and cross products -/

theorem x_sumsq (r : Fin 16384) :
    val_main_v27 (F := Ideal) x0 x2 x3 x4 x5 (ix1 r) = sumsq (dml (cur x2) (cur1 x3) (cur x4) (cur1 x5) (cur x0 r)) := by
  rw [val_main_v27_apply, val_main_cst_apply]
  show Ideal.ofBits .f32 0x00000000#32 + _ = _
  rw [Ideal.ofBits_zero_f32, zero_add]
  unfold sumsq
  refine Finset.sum_congr rfl fun d _ => ?_
  have hi : idx_main_v27 (ix1 r) d = ix2 r d := by idx_rfl
  rw [val_main_v26_apply, hi, x_dml]
  rfl

theorem s_sumsq (s : Fin 2048) :
    val_main_v30 (F := Ideal) x1 x2 x3 x4 x5 (ix1 s) = sumsq (samNew x1 x2 x3 x4 x5 s) := by
  rw [val_main_v30_apply, val_main_cst_0_apply]
  show Ideal.ofBits .f32 0x00000000#32 + _ = _
  rw [Ideal.ofBits_zero_f32, zero_add]
  unfold sumsq
  refine Finset.sum_congr rfl fun d _ => ?_
  have hi : idx_main_v30 (ix1 s) d = ix2 s d := by idx_rfl
  rw [val_main_v29_apply, hi, s_dml]
  rfl

theorem cross (r : Fin 16384) (s : Fin 2048) :
    val_main_v36 (F := Ideal) x0 x1 x2 x3 x4 x5 (ix2 r s)
      = ∑ d : Fin 512, dml (cur x2) (cur1 x3) (cur x4) (cur1 x5) (cur x0 r) d * samNew x1 x2 x3 x4 x5 s d := by
  rw [val_main_v36_apply]
  refine Finset.sum_congr rfl fun d _ => ?_
  have hl : lidx_main_v36 (ix2 r s) d = ix2 r d := by idx_rfl
  have hr : idx_main_v35 (ridx_main_v36 (ix2 r s) d) = ix2 s d := by idx_rfl
  rw [val_main_v35_apply, hl, hr, x_dml, s_dml]

/-! ## exp (-distance), and the last two layers -/

theorem kern (r : Fin 16384) (s : Fin 2048) :
    val_main_v44 (F := Ideal) x0 x1 x2 x3 x4 x5 (ix2 r s)
      = rbf (dml (cur x2) (cur1 x3) (cur x4) (cur1 x5) (cur x0 r)) (samNew x1 x2 x3 x4 x5)
          (fun s => sumsq (samNew x1 x2 x3 x4 x5 s)) s := by
  rw [val_main_v44_apply, val_main_v43_apply, val_main_v42_apply, val_main_v41_apply, val_main_v40_apply, val_main_cst_2_apply,
    val_main_v39_apply, val_main_v38_apply, val_main_v37_apply, val_main_cst_1_apply, val_main_v34_apply, val_main_v32_apply,
    val_main_v28_apply, val_main_v33_apply, val_main_v31_apply]
  have h27 : idx_main_v28 (idx_main_v32 (ix2 r s)) = ix1 r := by idx_rfl
  have h30 : idx_main_v31 (idx_main_v33 (ix2 r s)) = ix1 s := by idx_rfl
  rw [h27, h30, x_sumsq, s_sumsq, cross]
  unfold rbf
  show Ideal.exp (-(Ideal.sqrt (max ((_ + _) - Ideal.ofBits .f32 0x40000000#32 * _) (Ideal.ofBits .f32 0x00000000#32)))) = _
  rw [Ideal.ofBits_zero_f32]

theorem lin1 (r : Fin 16384) (k : Fin 2048) :
    val_main_v46 (F := Ideal) x0 x1 x2 x3 x4 x5 x6 (ix2 r k)
      = rowMulT (cur x6) (rbf (dml (cur x2) (cur1 x3) (cur x4) (cur1 x5) (cur x0 r)) (samNew x1 x2 x3 x4 x5)
          (fun s => sumsq (samNew x1 x2 x3 x4 x5 s))) k := by
  rw [val_main_v46_apply]
  unfold rowMulT
  refine Finset.sum_congr rfl fun s _ => ?_
  have hl : lidx_main_v46 (ix2 r k) s = ix2 r s := by idx_rfl
  rw [val_main_v45_apply, hl, kern]
  exact congrArg (_ * ·) (congrArg x6 (by idx_rfl))

theorem lin1_mish (i : S16384x2048.Idx) :
    val_main_v49 (F := Ideal) x0 x1 x2 x3 x4 x5 x6 i = mish (val_main_v46 (F := Ideal) x0 x1 x2 x3 x4 x5 x6 i) := by
  rw [val_main_v49_apply, val_main_v48_apply, val_main_v47_apply, val_main_call2_v4_apply, val_main_call2_v6_apply,
    val_main_call2_v11_apply, val_main_call2_v1_apply, val_main_call2_v10_apply, val_main_call2_v9_apply,
    val_main_call2_v8_apply, val_main_call2_v7_apply, val_main_call2_v3_apply, val_main_call2_v0_apply,
    val_main_call2_v2_apply, val_main_call2_v5_apply, val_main_call2_cst_apply]
  exact mish_host _

/-- THE REFERENCE'S RESULT is the row function of the arguments, index by index. -/
theorem ref_eq : val_main_v51 (F := Ideal) x0 x1 x2 x3 x4 x5 x6 x7 = result x0 x1 x2 x3 x4 x5 x6 x7 := by
  funext i
  obtain ⟨r, j, rfl⟩ : ∃ (r : Fin 16384) (j : Fin 2048), i = ix2 r j := ⟨i 0, i 1, eq_ix2 i⟩
  rw [val_main_v51_apply]
  unfold result head
  refine Finset.sum_congr rfl fun k _ => ?_
  have hl : lidx_main_v51 (ix2 r j) k = ix2 r k := by idx_rfl
  rw [val_main_v50_apply, hl, lin1_mish, lin1]
  exact congrArg (mish _ * ·) (congrArg x7 (by idx_rfl))

end Cert.ReferenceIdeal.RefValue

end
-- ==== Proof.lean ====
/-
  A mish / RBF network on a TPU against its jnp reference: the two programs compute the same extended reals.

  The reference maps the rows of x and the 2048 sample rows through two layers (mish (· W1ᵀ + b1) · W2ᵀ + b2), forms
  exp (-‖xd - sn‖) from the expanded square ‖xd‖² + ‖sn‖² - 2 ⟨xd, sn⟩, and applies mish (· Wn1ᵀ) · Wn2ᵀ. The kernel
  program does the same in two launches: one maps the samples; after the host has summed their squares, the other
  handles x in 64 blocks of 256 rows. With floats read as extended reals a change of float format is the identity, a
  matrix unit's product into zeros and the host's dot_general are the same sum over the contracted axis, and a lane sum and
  the host's reduce are the same sum; every entry of the result depends on one row of x only, so the tiling does not show.
  Both results are therefore Cert.RowSpec.result of the arguments, entry by entry (no finiteness of the inputs is used:
  the two sides form the same sums of the same products, and the only law needed is 0 - a = -a).

  The frames of the two kernel programs are the generated ones; the reference's frame is its run with the result
  dropped; the idealization rewrote nothing, so there is nothing to preserve.
-/
import proofs.«181897_j61692910239943_1_alg».proof.Defs
import proofs.«181897_j61692910239943_1_alg».proof.Proof.Gen.Kernel
import proofs.«181897_j61692910239943_1_alg».proof.Proof.Gen.Kernel.Skeleton
import proofs.«181897_j61692910239943_1_alg».proof.Proof.Gen.Kernel.Launch
import proofs.«181897_j61692910239943_1_alg».proof.Proof.Gen.Kernel.Points
import proofs.«181897_j61692910239943_1_alg».proof.Proof.Gen.Kernel.Frame
import proofs.«181897_j61692910239943_1_alg».proof.Proof.Gen.KernelIdeal
import proofs.«181897_j61692910239943_1_alg».proof.Proof.Gen.KernelIdeal.Skeleton
import proofs.«181897_j61692910239943_1_alg».proof.Proof.Gen.KernelIdeal.Launch
import proofs.«181897_j61692910239943_1_alg».proof.Proof.Gen.KernelIdeal.Points
import proofs.«181897_j61692910239943_1_alg».proof.Proof.Gen.KernelIdeal.Frame
import proofs.«181897_j61692910239943_1_alg».proof.Proof.Gen.ReferenceIdeal
import proofs.«181897_j61692910239943_1_alg».proof.Proof.Gen.Pre_finite_inputs
import proofs.«181897_j61692910239943_1_alg».proof.Proof.KernelRunP
import proofs.«181897_j61692910239943_1_alg».proof.Proof.KernelValue
import proofs.«181897_j61692910239943_1_alg».proof.Proof.RefRunP
import proofs.«181897_j61692910239943_1_alg».proof.Proof.RefReadP
import proofs.«181897_j61692910239943_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with their result at the row function of the (agreeing) arguments. -/
theorem algebraic : Cert.algebraic_KernelIdeal_ReferenceIdeal := by
  intro m ρ m' ρ' _ hagree
  refine ⟨fun c => Cert.RowSpec.result (Cert.KernelIdeal.Closed.a0 m c) (Cert.KernelIdeal.Closed.a1 m c)
      (Cert.KernelIdeal.Closed.a2 m c) (Cert.KernelIdeal.Closed.a3 m c) (Cert.KernelIdeal.Closed.a4 m c)
      (Cert.KernelIdeal.Closed.a5 m c) (Cert.KernelIdeal.Closed.a6 m c) (Cert.KernelIdeal.Closed.a7 m c), ?_, ?_⟩
  · exact (θ_run Cert.KernelIdeal.defs _ _).mono
      (fun r h c => ⟨(h c).1.trans (Cert.KernelIdeal.Closed.out_eq m ρ c), (h c).2⟩)
      (Cert.KernelIdeal.GenP.run_out (F := Ideal) m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.ReadP.val_main_v51_eq m' c).trans ((Cert.ReferenceIdeal.RefValue.ref_eq _ _ _ _ _ _ _ _).trans ?_)
    obtain ⟨h0, h1, h2, h3, h4, h5, h6, h7⟩ := hagree c
    rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
